-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : FVec F S128x128 .f32) (main_arg2 : FVec F S128x64 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x64 : Shape := ⟨2, ![128, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.GraphConv.lean ====
/-
  Two rounds of degree-normalised neighbourhood aggregation on a graph of 100000 nodes, as functions of whole arrays.

  One round takes node features `h` (one row of 128 numbers per node), scales row `r` by the out-degree factor
  `on r`, sums over each node's incoming edges the scaled rows of the edges' sources (the aggregation: a gather along
  the source list followed by a scatter-add along the destination list — it enters this file only as the array `a`
  it produces), scales row `r` of the sum by the in-degree factor `inn r` and multiplies by a weight matrix. The
  first round ends with `max · 0` and the next round's out-degree scaling; the second ends with the product.

  The three arithmetic stages between the aggregations are stated here once, index by index, over the extended
  reals: `scaleRows`, `hiddenLayer`, `outputLayer`. Both programs of the certificate are shown to compute exactly
  these functions of the same arrays, so no algebraic law is needed to join them: a product of a row with its factor
  is written in the same order on both sides, and a matrix product is the same finite sum over the 128 inner indices.
  The degree factors are kept as columns (arrays of shape [100000, 1]), the layout in which both programs hold them
  when they multiply.
-/
import Idealize.ShloMosaic.PureOps.Ideal
import Idealize.ShloMosaic.Lib.ValueIdx

noncomputable section

open scoped BigOperators

namespace Cert.GraphConv

open Idealize.ShloMosaic

/-- The entry of a column (shape [100000, 1]) that belongs to the row of the index `i`. -/
abbrev rowOf {b : Nat} (i : (⟨2, ![100000, b]⟩ : Shape).Idx) : (⟨2, ![100000, 1]⟩ : Shape).Idx := fun a => match a with
  | ⟨0, _⟩ => ⟨(i 0).val, (i 0).isLt⟩
  | ⟨1, _⟩ => ⟨0, Nat.one_pos⟩

/-- Entry `k` of the row of `i` in an array of 128 columns: the left factor's index in a matrix product. -/
abbrev lhsAt {b : Nat} (i : (⟨2, ![100000, b]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩

/-- Entry `k` of the column of `i` in a weight matrix of 128 rows: the right factor's index in a matrix product. -/
abbrev rhsAt {b : Nat} (i : (⟨2, ![100000, b]⟩ : Shape).Idx) (k : Fin 128) : (⟨2, ![128, b]⟩ : Shape).Idx := fun a => match a with
  | ⟨0, _⟩ => ⟨k.val, k.isLt⟩
  | ⟨1, _⟩ => ⟨(i 1).val, (i 1).isLt⟩

/-- Row `r` of `x` times the `r`-th degree factor. -/
def scaleRows (x : FVec Ideal ⟨2, ![100000, 128]⟩ .f32) (n : FVec Ideal ⟨2, ![100000, 1]⟩ .f32) :
    FVec Ideal ⟨2, ![100000, 128]⟩ .f32 :=
  fun i => x i * n (rowOf i)

/-- The first round after its aggregation `a`: rows scaled by the in-degree factors, times the weights, the negative
    part cut off, rows scaled by the out-degree factors for the next round. The zero is kept as the word both programs
    print for it. -/
def hiddenLayer (a : FVec Ideal ⟨2, ![100000, 128]⟩ .f32) (inn onn : FVec Ideal ⟨2, ![100000, 1]⟩ .f32)
    (w : FVec Ideal ⟨2, ![128, 128]⟩ .f32) : FVec Ideal ⟨2, ![100000, 128]⟩ .f32 :=
  fun i => max (∑ k : Fin 128, (a (lhsAt i k) * inn (rowOf (lhsAt i k))) * w (rhsAt i k)) (Ideal.ofBits .f32 0x00000000#32) * onn (rowOf i)

/-- The second round after its aggregation `a`: rows scaled by the in-degree factors, times the weights. -/
def outputLayer (a : FVec Ideal ⟨2, ![100000, 128]⟩ .f32) (inn : FVec Ideal ⟨2, ![100000, 1]⟩ .f32)
    (w : FVec Ideal ⟨2, ![128, 64]⟩ .f32) : FVec Ideal ⟨2, ![100000, 64]⟩ .f32 :=
  fun i => ∑ k : Fin 128, (a (lhsAt i k) * inn (rowOf (lhsAt i k))) * w (rhsAt i k)

end Cert.GraphConv

end
-- ==== Proof.LibAfterAppend.lean ====
/-
  Buffer contents after two lists of host operations run one after the other.
-/
import Idealize.ShloMosaic.Lib.StableHlo.Run

namespace Idealize.ShloMosaic.StableHlo

variable {τ : Topo} {sig : RefSig} {Val : EltTy → Type}

/-- The contents after a concatenation of two operation lists are the contents after the second list, started from the
    contents after the first: the fold over the operations splits at the seam. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.HostSide.lean ====
/-
  The kernel program's host operations between its three regions, read as functions of the buffer contents they start
  from — any contents: each statement is over a variable valuation `U`, so nothing here depends on what a region
  left behind, and a stretch that calls the outlined clamp is read with its inputs as variables.

  Before the first region the program counts, for each node, the edges that leave it and the edges that enter it
  (a scatter-add of ones along the source list and along the destination list), raises the counts, taken at least
  one, to the power -1/2, and reshapes each vector of 100000 factors into a column: `degreeFactor`. Between the
  regions it aggregates: the previous region's rows gathered along the source list (a negative source counted from
  the end) and summed into the rows the destination list names: `aggregate`. Neither function is opened here or
  later; the other buffers a stretch is read at are ones it does not write.
-/
import proofs.«142422_j64948495450714_1_alg».proof.Proof.Gen.KernelIdeal.Launch
import proofs.«142422_j64948495450714_1_alg».proof.Proof.LibAfterAppend
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem Idealize.ShloMosaic.StableHlo

/-- A node's degree factor as the kernel program computes it from an edge-endpoint list: the number of edges with
    that endpoint, at least one, to the power -1/2; reshaped into a column. -/
def degreeFactor (idx : (⟨S1600000, .i32⟩ : BufTy).Contents (Elt Ideal)) : FVec Ideal S100000x1 .f32 :=
  shapeCast S100000x1 (Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 idx) (broadcastInDim S1600000 ![] bcast_S_S1600000 (constant (F := Ideal) S_ .f32 0x3F800000#32)))) (broadcastInDim S100000 ![] bcast_S_S100000 (constant (F := Ideal) S_ .f32 0xBF000000#32))) shapeCasts_S100000_S100000x1

/-- The aggregation as the kernel program computes it between two regions. -/
def aggregate (src dst : (⟨S1600000, .i32⟩ : BufTy).Contents (Elt Ideal)) (h : FVec Ideal S100000x128 .f32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-! ## Before the first region, stretch by stretch -/

/-- The out-degree counts: ones summed along the source list. -/
theorem count_out (U : Valuation τ sig (Elt Ideal)) :
    after (hostOps0 (F := Ideal)) U (Proc.devRef .tc main_v3) = Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 (U (Proc.devRef .tc main_arg3))) (broadcastInDim S1600000 ![] bcast_S_S1600000 (constant (F := Ideal) S_ .f32 0x3F800000#32)) := by
  after_results_simp

/-- The vector of ones, one per edge. -/
theorem ones_kept (U : Valuation τ sig (Elt Ideal)) :
    after (hostOps0 (F := Ideal)) U (Proc.devRef .tc main_v0) = broadcastInDim S1600000 ![] bcast_S_S1600000 (constant (F := Ideal) S_ .f32 0x3F800000#32) := by
  after_results_simp

/-- The lower bound of the out-degree count: one. -/
theorem floor_out (U : Valuation τ sig (Elt Ideal)) :
    after (hostOps0 (F := Ideal)) U (Proc.devRef .tc main_cst_1) = (constant (F := Ideal) S_ .f32 0x3F800000#32) := by
  after_results_simp

theorem s0_arg4 (U : Valuation τ sig (Elt Ideal)) :
    after (hostOps0 (F := Ideal)) U (Proc.devRef .tc main_arg4) = U (Proc.devRef .tc main_arg4) := by
  after_results_simp

/-- The out-degree counts taken at least the bound. -/
theorem clamp_out (U : Valuation τ sig (Elt Ideal)) :
    after (hostOps0_1 (F := Ideal)) U (Proc.devRef .tc main_v4) = (maximumf (broadcastInDim S100000 ![] bcast_S_S100000 (id (U (Proc.devRef .tc main_cst_1) : FVec Ideal S_ .f32))) (U (Proc.devRef .tc main_v3) : FVec Ideal S100000 .f32) : FVec Ideal S100000 .f32) := by
  after_results_simp
  rfl

theorem s1_v0 (U : Valuation τ sig (Elt Ideal)) :
    after (hostOps0_1 (F := Ideal)) U (Proc.devRef .tc main_v0) = U (Proc.devRef .tc main_v0) := by
  after_results_simp

theorem s1_arg4 (U : Valuation τ sig (Elt Ideal)) :
    after (hostOps0_1 (F := Ideal)) U (Proc.devRef .tc main_arg4) = U (Proc.devRef .tc main_arg4) := by
  after_results_simp

/-- The in-degree counts: the ones summed along the destination list. -/
theorem count_in (U : Valuation τ sig (Elt Ideal)) :
    after (hostOps0_2 (F := Ideal)) U (Proc.devRef .tc main_v7) = Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 (U (Proc.devRef .tc main_arg4))) (U (Proc.devRef .tc main_v0)) := by
  after_results_simp

/-- The lower bound of the in-degree count: one. -/
theorem floor_in (U : Valuation τ sig (Elt Ideal)) :
    after (hostOps0_2 (F := Ideal)) U (Proc.devRef .tc main_cst_3) = (constant (F := Ideal) S_ .f32 0x3F800000#32) := by
  after_results_simp

theorem s2_v4 (U : Valuation τ sig (Elt Ideal)) :
    after (hostOps0_2 (F := Ideal)) U (Proc.devRef .tc main_v4) = U (Proc.devRef .tc main_v4) := by
  after_results_simp

/-- The in-degree counts taken at least the bound. -/
theorem clamp_in (U : Valuation τ sig (Elt Ideal)) :
    after (hostOps0_3 (F := Ideal)) U (Proc.devRef .tc main_v8) = (maximumf (broadcastInDim S100000 ![] bcast_S_S100000 (id (U (Proc.devRef .tc main_cst_3) : FVec Ideal S_ .f32))) (U (Proc.devRef .tc main_v7) : FVec Ideal S100000 .f32) : FVec Ideal S100000 .f32) := by
  after_results_simp
  rfl

theorem s3_v4 (U : Valuation τ sig (Elt Ideal)) :
    after (hostOps0_3 (F := Ideal)) U (Proc.devRef .tc main_v4) = U (Proc.devRef .tc main_v4) := by
  after_results_simp

/-- The out-degree column: the clamped counts to the power -1/2, reshaped. -/
theorem power_out (U : Valuation τ sig (Elt Ideal)) :
    after (hostOps0_4 (F := Ideal)) U (Proc.devRef .tc main_v11) = shapeCast S100000x1 (Host.powf (U (Proc.devRef .tc main_v4)) (broadcastInDim S100000 ![] bcast_S_S100000 (constant (F := Ideal) S_ .f32 0xBF000000#32))) shapeCasts_S100000_S100000x1 := by
  after_results_simp
  rfl

/-- The in-degree column: the clamped counts to the power -1/2, reshaped. -/
theorem power_in (U : Valuation τ sig (Elt Ideal)) :
    after (hostOps0_4 (F := Ideal)) U (Proc.devRef .tc main_v14) = shapeCast S100000x1 (Host.powf (U (Proc.devRef .tc main_v8)) (broadcastInDim S100000 ![] bcast_S_S100000 (constant (F := Ideal) S_ .f32 0xBF000000#32))) shapeCasts_S100000_S100000x1 := by
  after_results_simp
  rfl

/-- The out-degree column at the first region's entry is the degree factor of the source list. -/
theorem entry_outFactor (U : Valuation τ sig (Elt Ideal)) :
    after (hostOps0_4 (F := Ideal)) (after hostOps0_3 (after hostOps0_2 (after hostOps0_1 (after hostOps0 U)))) (Proc.devRef .tc main_v11)
      = degreeFactor (U (Proc.devRef .tc main_arg3)) := by
  rw [power_out, s3_v4, s2_v4, clamp_out, floor_out, count_out]
  rfl

/-- The in-degree column at the first region's entry is the degree factor of the destination list. -/
theorem entry_inFactor (U : Valuation τ sig (Elt Ideal)) :
    after (hostOps0_4 (F := Ideal)) (after hostOps0_3 (after hostOps0_2 (after hostOps0_1 (after hostOps0 U)))) (Proc.devRef .tc main_v14)
      = degreeFactor (U (Proc.devRef .tc main_arg4)) := by
  rw [power_in, clamp_in, floor_in, count_in, s1_arg4, s0_arg4, s1_v0, ones_kept]
  rfl

/-- The operations before the first region, in order, as one list: for the buffers none of them writes. -/
abbrev entryOps : List (HloOp τ sig (Elt Ideal)) := hostOps0 ++ (hostOps0_1 ++ (hostOps0_2 ++ (hostOps0_3 ++ hostOps0_4)))

/-- Running the five stretches one after the other is running their concatenation. -/
theorem entry_fold (U : Valuation τ sig (Elt Ideal)) :
    after hostOps0_4 (after hostOps0_3 (after hostOps0_2 (after hostOps0_1 (after hostOps0 U)))) = after entryOps U := by
  unfold entryOps
  rw [after_append, after_append, after_append, after_append]

/-- No operation before the first region writes argument 0. -/
theorem entry_arg0 (U : Valuation τ sig (Elt Ideal)) :
    after hostOps0_4 (after hostOps0_3 (after hostOps0_2 (after hostOps0_1 (after hostOps0 U)))) (Proc.devRef .tc main_arg0) = U (Proc.devRef .tc main_arg0) := by
  rw [entry_fold]
  unfold entryOps
  simp only [hostOps0, hostOps0_1, hostOps0_2, hostOps0_3, hostOps0_4, List.cons_append, List.nil_append]
  after_results_simp

/-- No operation before the first region writes argument 1. -/
theorem entry_arg1 (U : Valuation τ sig (Elt Ideal)) :
    after hostOps0_4 (after hostOps0_3 (after hostOps0_2 (after hostOps0_1 (after hostOps0 U)))) (Proc.devRef .tc main_arg1) = U (Proc.devRef .tc main_arg1) := by
  rw [entry_fold]
  unfold entryOps
  simp only [hostOps0, hostOps0_1, hostOps0_2, hostOps0_3, hostOps0_4, List.cons_append, List.nil_append]
  after_results_simp

/-- No operation before the first region writes argument 2. -/
theorem entry_arg2 (U : Valuation τ sig (Elt Ideal)) :
    after hostOps0_4 (after hostOps0_3 (after hostOps0_2 (after hostOps0_1 (after hostOps0 U)))) (Proc.devRef .tc main_arg2) = U (Proc.devRef .tc main_arg2) := by
  rw [entry_fold]
  unfold entryOps
  simp only [hostOps0, hostOps0_1, hostOps0_2, hostOps0_3, hostOps0_4, List.cons_append, List.nil_append]
  after_results_simp

/-- No operation before the first region writes argument 3. -/
theorem entry_arg3 (U : Valuation τ sig (Elt Ideal)) :
    after hostOps0_4 (after hostOps0_3 (after hostOps0_2 (after hostOps0_1 (after hostOps0 U)))) (Proc.devRef .tc main_arg3) = U (Proc.devRef .tc main_arg3) := by
  rw [entry_fold]
  unfold entryOps
  simp only [hostOps0, hostOps0_1, hostOps0_2, hostOps0_3, hostOps0_4, List.cons_append, List.nil_append]
  after_results_simp

/-- No operation before the first region writes argument 4. -/
theorem entry_arg4 (U : Valuation τ sig (Elt Ideal)) :
    after hostOps0_4 (after hostOps0_3 (after hostOps0_2 (after hostOps0_1 (after hostOps0 U)))) (Proc.devRef .tc main_arg4) = U (Proc.devRef .tc main_arg4) := by
  rw [entry_fold]
  unfold entryOps
  simp only [hostOps0, hostOps0_1, hostOps0_2, hostOps0_3, hostOps0_4, List.cons_append, List.nil_append]
  after_results_simp

/-! ## Between the first and the second region -/

/-- The second region's feature input is the aggregation of the first region's result. -/
theorem first_aggregate (U : Valuation τ sig (Elt Ideal)) :
    after (hostOps1 (F := Ideal)) U (Proc.devRef .tc main_v25)
      = aggregate (U (Proc.devRef .tc main_arg3)) (U (Proc.devRef .tc main_arg4)) (U (Proc.devRef .tc main_v15)) := by
  after_results_simp
  rfl

theorem first_keep_v14 (U : Valuation τ sig (Elt Ideal)) :
    after (hostOps1 (F := Ideal)) U (Proc.devRef .tc main_v14) = U (Proc.devRef .tc main_v14) := by
  after_results_simp

theorem first_keep_v11 (U : Valuation τ sig (Elt Ideal)) :
    after (hostOps1 (F := Ideal)) U (Proc.devRef .tc main_v11) = U (Proc.devRef .tc main_v11) := by
  after_results_simp

theorem first_keep_arg1 (U : Valuation τ sig (Elt Ideal)) :
    after (hostOps1 (F := Ideal)) U (Proc.devRef .tc main_arg1) = U (Proc.devRef .tc main_arg1) := by
  after_results_simp

theorem first_keep_arg2 (U : Valuation τ sig (Elt Ideal)) :
    after (hostOps1 (F := Ideal)) U (Proc.devRef .tc main_arg2) = U (Proc.devRef .tc main_arg2) := by
  after_results_simp

theorem first_keep_arg3 (U : Valuation τ sig (Elt Ideal)) :
    after (hostOps1 (F := Ideal)) U (Proc.devRef .tc main_arg3) = U (Proc.devRef .tc main_arg3) := by
  after_results_simp

theorem first_keep_arg4 (U : Valuation τ sig (Elt Ideal)) :
    after (hostOps1 (F := Ideal)) U (Proc.devRef .tc main_arg4) = U (Proc.devRef .tc main_arg4) := by
  after_results_simp

/-! ## Between the second and the third region -/

/-- The third region's feature input is the aggregation of the second region's result. -/
theorem second_aggregate (U : Valuation τ sig (Elt Ideal)) :
    after (hostOps2 (F := Ideal)) U (Proc.devRef .tc main_v36)
      = aggregate (U (Proc.devRef .tc main_arg3)) (U (Proc.devRef .tc main_arg4)) (U (Proc.devRef .tc main_v26)) := by
  after_results_simp
  rfl

theorem second_keep_v14 (U : Valuation τ sig (Elt Ideal)) :
    after (hostOps2 (F := Ideal)) U (Proc.devRef .tc main_v14) = U (Proc.devRef .tc main_v14) := by
  after_results_simp

theorem second_keep_arg2 (U : Valuation τ sig (Elt Ideal)) :
    after (hostOps2 (F := Ideal)) U (Proc.devRef .tc main_arg2) = U (Proc.devRef .tc main_arg2) := by
  after_results_simp

end Cert.KernelIdeal.HostSide

end
-- ==== Proof.ScaleRegion.lean ====
/-
  The first kernel region — the row scaling — as one function of the arrays it is entered with.

  Its grid has 20 points; point `t` holds rows 5000·t … 5000·t + 4999 of the feature array (a block of shape
  [5000, 128]) and the same rows of the out-degree column (a block of shape [5000, 1]), multiplies each entry of the
  feature block by the column block's entry of its row, and writes the product back to the same rows of the result.
  So what point `t` writes back is block `t` of `scaleRows` of the two whole arrays, the 20 blocks tile the result,
  and the result array ends holding `scaleRows` of the arrays the region found.
-/
import proofs.«142422_j64948495450714_1_alg».proof.Proof.Gen.KernelIdeal.Frame
import proofs.«142422_j64948495450714_1_alg».proof.Proof.GraphConv
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.ScaleRegion

open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The column block's entry in the row of the feature block's entry `j`. -/
abbrev colOf (j : S5000x128.Idx) : S5000x1.Idx := fun a => match a with
  | ⟨0, _⟩ => ⟨(j 0).val, (j 0).isLt⟩
  | ⟨1, _⟩ => ⟨0, Nat.one_pos⟩

/-- The body's value at an entry of its block: that entry of the feature block times the column block's entry of the
    same row (the column block is cast to its own shape and broadcast along the rows). -/
theorem payload_apply (x0 : Vec Ideal S5000x128 .f32) (x1 : Vec Ideal S5000x1 .f32) (j : S5000x128.Idx) :
    k0_pay1 (F := Ideal) x0 x1 j = x0 j * x1 (colOf j) := by
  unfold k0_pay1
  show x0 j * broadcastTo S5000x128 (shapeCast S5000x1 x1 shapeCasts_S5000x1_S5000x1) broadcasts_S5000x1_S5000x128 j = _
  rw [shapeCast_self, broadcastTo_apply x1 broadcasts_S5000x1_S5000x128 j (colOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

/-- The three windows' block indices at a point, decided over the 20 points: the row block is the point itself, the
    column block index is zero, and the two inputs move with the output. -/
theorem blocks : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- Read through point `t`'s blocks, the product of a feature entry with the column entry of its row is the row
    scaling of the whole arrays at the entry's place in the result: the feature block and the result block are the same
    rows, and the column block's row `r` is the array's row 5000·t + r. -/
theorem block_eq (A : FVec Ideal S100000x128 .f32) (N : FVec Ideal S100000x1 .f32) (t : Fin cfg0.N) (j : S5000x128.Idx) :
    A (((cfg0.win 0).blk t).view.emb j) * N (((cfg0.win 1).blk t).view.emb (colOf j))
      = scaleRows A N (((cfg0.win 2).blk t).view.emb j) := by
  obtain ⟨e0, e1, e2, e3, e4, e5⟩ := blocks t
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (colOf j) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]
  rfl

/-- What point `t` writes back is block `t` of the row scaling of the whole arrays. -/
theorem flushed_eq (c : Dev nD) (t : Fin cfg0.N) :
    (dat0 V c).flushed 2 t = ((cfg0.win 2).blk t).view.read (Elt Ideal) (scaleRows (V c main_arg0) (V c main_v11)) := by
  show (cfg0.win 2).cut (grid0.coords t) ((dat0 V c).after 2 t) = _
  rw [after0_2]
  unfold out0_2
  rw [View.canon_unit_zero origin]
  simp only [View.ld_unit_zero (S := S5000x128) origin, View.ld_unit_zero (S := S5000x1) origin]
  funext j
  refine (payload_apply (iblk0 V c 0 t) (iblk0 V c 1 t) j).trans ?_
  exact block_eq (V c main_arg0) (V c main_v11) t j

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Every row lies in the block of the point `row / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨_, _, _, _, e4, e5⟩ := blocks ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The result array after the region: the row scaling of the arrays the region was entered with. -/
theorem final (c : Dev nD) : (dat0 V c).arrAt 2 cfg0.N = scaleRows (V c main_arg0) (V c main_v11) :=
  (dat0 V c).arrAt_eq_of_cover 2 (scaleRows (V c main_arg0) (V c main_v11)) (fun t _ => flushed_eq V c t) (covered)

end Cert.KernelIdeal.ScaleRegion

end
-- ==== Proof.HiddenRegion.lean ====
/-
  The second kernel region — the first round's arithmetic — as one function of the arrays it is entered with.

  Point `t` of its 20 holds rows 5000·t … 5000·t + 4999 of the aggregated features and of the two degree columns,
  and the whole 128 × 128 weight matrix. It scales each row of the feature block by the in-degree column's entry of
  that row, multiplies by the weights (the operands pass through a narrower float format on the way, which changes
  nothing over the extended reals; the accumulator starts at zero), takes the maximum with zero and scales each row by
  the out-degree column's entry. An entry of the result therefore depends on one row of the feature block, one entry
  of each column block and one column of the weights: it is block `t` of `hiddenLayer` of the whole arrays.
-/
import proofs.«142422_j64948495450714_1_alg».proof.Proof.Gen.KernelIdeal.Frame
import proofs.«142422_j64948495450714_1_alg».proof.Proof.GraphConv
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.HiddenRegion

open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- Entry `k` of the row of `j` in the feature block: the left factor's index in the block's matrix product. -/
abbrev rowEntry (j : S5000x128.Idx) (k : Fin 128) : S5000x128.Idx := fun a => match a with
  | ⟨0, _⟩ => ⟨(j 0).val, (j 0).isLt⟩
  | ⟨1, _⟩ => ⟨k.val, k.isLt⟩

/-- Entry `k` of the column of `j` in the weight block: the right factor's index. -/
abbrev weightEntry (j : S5000x128.Idx) (k : Fin 128) : S128x128.Idx := fun a => match a with
  | ⟨0, _⟩ => ⟨k.val, k.isLt⟩
  | ⟨1, _⟩ => ⟨(j 1).val, (j 1).isLt⟩

/-- The column block's entry in the row of a feature-block entry `j`. -/
abbrev colOf (j : S5000x128.Idx) : S5000x1.Idx := fun a => match a with
  | ⟨0, _⟩ => ⟨(j 0).val, (j 0).isLt⟩
  | ⟨1, _⟩ => ⟨0, Nat.one_pos⟩

/-- A column block broadcast along the rows reads, at an entry, the column's entry of that row. -/
theorem alongRows_apply (x : Vec Ideal S5000x1 .f32) (j : S5000x128.Idx) :
    broadcastTo S5000x128 x broadcasts_S5000x1_S5000x128 j = x (colOf j) :=
  broadcastTo_apply x broadcasts_S5000x1_S5000x128 j (colOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_inner (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_inner (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at an entry: the sum over the 128 inner indices of the
    products of the row's and the column's entries (over the extended reals there is no rounding and no order in it). -/
theorem product_apply {φ₁ φ₂ : FTy} (l : FVec Ideal S5000x128 φ₁) (r : FVec Ideal S128x128 φ₂) (j : S5000x128.Idx) :
    matmul dot_S5000x128_S128x128_S5000x128_1_0_0_1_n_n none l r (constant S5000x128 .f32 0x00000000#32) j = ∑ k : Fin 128, l (rowEntry j k) * r (weightEntry j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowEntry j k := funext fun a => Fin.ext (by
    match a with
    | ⟨0, _⟩ => exact lhs_row _ _
    | ⟨1, _⟩ => exact (lhs_inner _ _).trans hk)
  have er : dot_S5000x128_S128x128_S5000x128_1_0_0_1_n_n.rhsIdx j ((ValueIdx.contrEquiv1 dot_S5000x128_S128x128_S5000x128_1_0_0_1_n_n 128 rfl rfl).symm k) = weightEntry j k := funext fun a => Fin.ext (by
    match a with
    | ⟨0, _⟩ => exact (rhs_inner _ _).trans hk
    | ⟨1, _⟩ => exact rhs_col _ _)
  rw [el, er]

/-- The body's value at an entry `j` of its block. -/
theorem payload_apply (x0 : Vec Ideal S5000x128 .f32) (x2 : Vec Ideal S5000x1 .f32) (x7 : Vec Ideal S128x128 .f32) (x12 : Vec Ideal S5000x1 .f32)
    (j : S5000x128.Idx) :
    k1_pay1 (F := Ideal) x0 x2 x7 x12 j
      = max (∑ k : Fin 128, (x0 (rowEntry j k) * x2 (colOf (rowEntry j k))) * x7 (weightEntry j k)) (Ideal.ofBits .f32 0x00000000#32) * x12 (colOf j) := by
  unfold k1_pay1
  rw [shapeCast_self, shapeCast_self, shapeCast_self]
  show max (matmul dot_S5000x128_S128x128_S5000x128_1_0_0_1_n_n none (truncf .bf16 (mulf x0 (broadcastTo S5000x128 x2 broadcasts_S5000x1_S5000x128)) bitsLt_bf16_f32)
        (truncf .bf16 x7 bitsLt_bf16_f32) (constant S5000x128 .f32 0x00000000#32) j) (Ideal.ofBits .f32 0x00000000#32)
      * broadcastTo S5000x128 x12 broadcasts_S5000x1_S5000x128 j = _
  rw [product_apply, alongRows_apply]
  refine congrArg (fun s => max s (Ideal.ofBits .f32 0x00000000#32) * x12 (colOf j)) (Finset.sum_congr rfl fun k _ => ?_)
  show x0 (rowEntry j k) * broadcastTo S5000x128 x2 broadcasts_S5000x1_S5000x128 (rowEntry j k) * x7 (weightEntry j k) = _
  rw [alongRows_apply]

/-- The five windows' block indices at a point, decided over the 20 points: the row block of every row-tiled window is
    the point itself, every column block index is zero, and the weights are one block. -/
theorem blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Read through point `t`'s blocks, the body's value at an entry is `hiddenLayer` of the whole arrays at the entry's
    place in the result. -/
theorem block_eq (A : FVec Ideal S100000x128 .f32) (I O : FVec Ideal S100000x1 .f32) (W : FVec Ideal S128x128 .f32)
    (t : Fin cfg1.N) (j : S5000x128.Idx) :
    max (∑ k : Fin 128, (A (((cfg1.win 0).blk t).view.emb (rowEntry j k)) * I (((cfg1.win 1).blk t).view.emb (colOf (rowEntry j k))))
          * W (((cfg1.win 3).blk t).view.emb (weightEntry j k))) (Ideal.ofBits .f32 0x00000000#32)
        * O (((cfg1.win 2).blk t).view.emb (colOf j))
      = hiddenLayer A I O W (((cfg1.win 4).blk t).view.emb j) := by
  obtain ⟨a0, a1, b0, b1, c0, c1, d0, d1, e0, e1⟩ := blocks t
  have hA : ∀ k : Fin 128, ((cfg1.win 0).blk t).view.emb (rowEntry j k) = lhsAt (((cfg1.win 4).blk t).view.emb j) k := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have hI : ∀ k : Fin 128, ((cfg1.win 1).blk t).view.emb (colOf (rowEntry j k)) = rowOf (lhsAt (((cfg1.win 4).blk t).view.emb j) k) := fun k => by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have hW : ∀ k : Fin 128, ((cfg1.win 3).blk t).view.emb (weightEntry j k) = rhsAt (((cfg1.win 4).blk t).view.emb j) k := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega
  have hO : ((cfg1.win 2).blk t).view.emb (colOf j) = rowOf (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  rw [hO]
  simp only [hA, hI, hW]
  rfl

/-- What point `t` writes back is block `t` of `hiddenLayer` of the whole arrays. -/
theorem flushed_eq (c : Dev nD) (t : Fin cfg1.N) :
    (dat1 V c).flushed 4 t = ((cfg1.win 4).blk t).view.read (Elt Ideal)
      (hiddenLayer (V c main_v25) (V c main_v14) (V c main_v11) (V c main_arg1)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin, View.ld_unit_zero (S := S128x128) origin]
  funext j
  refine (payload_apply (iblk1 V c 0 t) (iblk1 V c 1 t) (iblk1 V c 3 t) (iblk1 V c 2 t) j).trans ?_
  exact block_eq (V c main_v25) (V c main_v14) (V c main_v11) (V c main_arg1) t j

/-- An index of the result array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v26).slice (win1_4.rect t)).set ↔ _
  rw [View.set_slice_whole, Rect.mem_set_unit]
  exact Iff.rfl

/-- Every row lies in the block of the point `row / 5000`. -/
theorem covered (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨_, _, _, _, _, _, _, _, e0, e1⟩ := blocks ⟨(i 0).val / 5000, ht⟩
  have e0' : win1_4.index ⟨(i 0).val / 5000, ht⟩ (0 : Fin 2) = (i 0).val / 5000 := e0
  refine ⟨⟨(i 0).val / 5000, ht⟩, flush1_4 _, ?_⟩
  rw [mem_block]
  intro a
  match a with
  | ⟨0, _⟩ => show win1_4.index ⟨(i 0).val / 5000, ht⟩ (0 : Fin 2) * 5000 ≤ (i 0).val ∧ (i 0).val < win1_4.index ⟨(i 0).val / 5000, ht⟩ (0 : Fin 2) * 5000 + 5000; omega
  | ⟨1, _⟩ => show win1_4.index ⟨(i 0).val / 5000, ht⟩ (1 : Fin 2) * 128 ≤ (i 1).val ∧ (i 1).val < win1_4.index ⟨(i 0).val / 5000, ht⟩ (1 : Fin 2) * 128 + 128; omega

/-- The result array after the region: `hiddenLayer` of the arrays the region was entered with. -/
theorem final (c : Dev nD) : (dat1 V c).arrAt 4 cfg1.N = hiddenLayer (V c main_v25) (V c main_v14) (V c main_v11) (V c main_arg1) :=
  (dat1 V c).arrAt_eq_of_cover 4 (hiddenLayer (V c main_v25) (V c main_v14) (V c main_v11) (V c main_arg1)) (fun t _ => flushed_eq V c t) (covered)

end Cert.KernelIdeal.HiddenRegion

end
-- ==== Proof.OutputRegion.lean ====
/-
  The third kernel region — the second round's arithmetic — as one function of the arrays it is entered with.

  Point `t` of its 20 holds rows 5000·t … 5000·t + 4999 of the aggregated features and of the in-degree column, and
  the whole 128 × 64 weight matrix; it scales each row of the feature block by the column's entry of that row and
  multiplies by the weights into a zero accumulator (the operands pass through a narrower float format, which changes
  nothing over the extended reals). What it writes back is block `t` of `outputLayer` of the whole arrays.
-/
import proofs.«142422_j64948495450714_1_alg».proof.Proof.Gen.KernelIdeal.Frame
import proofs.«142422_j64948495450714_1_alg».proof.Proof.GraphConv
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.OutputRegion

open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- Entry `k` of the row of `j` in the feature block: the left factor's index in the block's matrix product. -/
abbrev rowEntry (j : S5000x64.Idx) (k : Fin 128) : S5000x128.Idx := fun a => match a with
  | ⟨0, _⟩ => ⟨(j 0).val, (j 0).isLt⟩
  | ⟨1, _⟩ => ⟨k.val, k.isLt⟩

/-- Entry `k` of the column of `j` in the weight block: the right factor's index. -/
abbrev weightEntry (j : S5000x64.Idx) (k : Fin 128) : S128x64.Idx := fun a => match a with
  | ⟨0, _⟩ => ⟨k.val, k.isLt⟩
  | ⟨1, _⟩ => ⟨(j 1).val, (j 1).isLt⟩

/-- The column block's entry in the row of a feature-block entry `j`. -/
abbrev colOf (j : S5000x128.Idx) : S5000x1.Idx := fun a => match a with
  | ⟨0, _⟩ => ⟨(j 0).val, (j 0).isLt⟩
  | ⟨1, _⟩ => ⟨0, Nat.one_pos⟩

/-- A column block broadcast along the rows reads, at an entry, the column's entry of that row. -/
theorem alongRows_apply (x : Vec Ideal S5000x1 .f32) (j : S5000x128.Idx) :
    broadcastTo S5000x128 x broadcasts_S5000x1_S5000x128 j = x (colOf j) :=
  broadcastTo_apply x broadcasts_S5000x1_S5000x128 j (colOf j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

theorem lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_inner (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_inner (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into a zero accumulator, at an entry: the sum over the 128 inner indices of the
    products of the row's and the column's entries (over the extended reals there is no rounding and no order in it). -/
theorem product_apply {φ₁ φ₂ : FTy} (l : FVec Ideal S5000x128 φ₁) (r : FVec Ideal S128x64 φ₂) (j : S5000x64.Idx) :
    matmul dot_S5000x128_S128x64_S5000x64_1_0_0_1_n_n none l r (constant S5000x64 .f32 0x00000000#32) j = ∑ k : Fin 128, l (rowEntry j k) * r (weightEntry j k) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowEntry j k := funext fun a => Fin.ext (by
    match a with
    | ⟨0, _⟩ => exact lhs_row _ _
    | ⟨1, _⟩ => exact (lhs_inner _ _).trans hk)
  have er : dot_S5000x128_S128x64_S5000x64_1_0_0_1_n_n.rhsIdx j ((ValueIdx.contrEquiv1 dot_S5000x128_S128x64_S5000x64_1_0_0_1_n_n 128 rfl rfl).symm k) = weightEntry j k := funext fun a => Fin.ext (by
    match a with
    | ⟨0, _⟩ => exact (rhs_inner _ _).trans hk
    | ⟨1, _⟩ => exact rhs_col _ _)
  rw [el, er]

/-- The body's value at an entry `j` of its block. -/
theorem payload_apply (x0 : Vec Ideal S5000x128 .f32) (x2 : Vec Ideal S5000x1 .f32) (x7 : Vec Ideal S128x64 .f32) (j : S5000x64.Idx) :
    k2_pay1 (F := Ideal) x0 x2 x7 j
      = ∑ k : Fin 128, (x0 (rowEntry j k) * x2 (colOf (rowEntry j k))) * x7 (weightEntry j k) := by
  unfold k2_pay1
  rw [shapeCast_self, shapeCast_self]
  show matmul (F := Ideal) dot_S5000x128_S128x64_S5000x64_1_0_0_1_n_n none (truncf (F := Ideal) .bf16 (mulf (F := Ideal) x0 (broadcastTo S5000x128 x2 broadcasts_S5000x1_S5000x128)) bitsLt_bf16_f32)
        (truncf (F := Ideal) .bf16 x7 bitsLt_bf16_f32) (constant (F := Ideal) S5000x64 .f32 0x00000000#32) j = _
  rw [product_apply]
  refine Finset.sum_congr rfl fun k _ => ?_
  show x0 (rowEntry j k) * broadcastTo S5000x128 x2 broadcasts_S5000x1_S5000x128 (rowEntry j k) * x7 (weightEntry j k) = _
  rw [alongRows_apply]

/-- The four windows' block indices at a point, decided over the 20 points. -/
theorem blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Read through point `t`'s blocks, the body's value at an entry is `outputLayer` of the whole arrays at the entry's
    place in the result. -/
theorem block_eq (A : FVec Ideal S100000x128 .f32) (I : FVec Ideal S100000x1 .f32) (W : FVec Ideal S128x64 .f32)
    (t : Fin cfg2.N) (j : S5000x64.Idx) :
    (∑ k : Fin 128, (A (((cfg2.win 0).blk t).view.emb (rowEntry j k)) * I (((cfg2.win 1).blk t).view.emb (colOf (rowEntry j k))))
          * W (((cfg2.win 2).blk t).view.emb (weightEntry j k)))
      = outputLayer A I W (((cfg2.win 3).blk t).view.emb j) := by
  obtain ⟨a0, a1, b0, b1, d0, d1, e0, e1⟩ := blocks t
  have hA : ∀ k : Fin 128, ((cfg2.win 0).blk t).view.emb (rowEntry j k) = lhsAt (((cfg2.win 3).blk t).view.emb j) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hI : ∀ k : Fin 128, ((cfg2.win 1).blk t).view.emb (colOf (rowEntry j k)) = rowOf (lhsAt (((cfg2.win 3).blk t).view.emb j) k) := fun k => by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have hW : ∀ k : Fin 128, ((cfg2.win 2).blk t).view.emb (weightEntry j k) = rhsAt (((cfg2.win 3).blk t).view.emb j) k := fun k => by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  simp only [hA, hI, hW]
  rfl

/-- What point `t` writes back is block `t` of `outputLayer` of the whole arrays. -/
theorem flushed_eq (c : Dev nD) (t : Fin cfg2.N) :
    (dat2 V c).flushed 3 t = ((cfg2.win 3).blk t).view.read (Elt Ideal)
      (outputLayer (V c main_v36) (V c main_v14) (V c main_arg2)) := by
  show (cfg2.win 3).cut (grid2.coords t) ((dat2 V c).after 3 t) = _
  rw [after2_3]
  unfold out2_3
  rw [View.canon_unit_zero origin]
  simp only [View.ld_unit_zero (S := S5000x128) origin, View.ld_unit_zero (S := S5000x1) origin, View.ld_unit_zero (S := S128x64) origin]
  funext j
  refine (payload_apply (iblk2 V c 0 t) (iblk2 V c 1 t) (iblk2 V c 2 t) j).trans ?_
  exact block_eq (V c main_v36) (V c main_v14) (V c main_arg2) t j

/-- An index of the result array is in point `t`'s block iff each coordinate is in the block's range on its axis. -/
theorem mem_block (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v37).slice (win2_3.rect t)).set ↔ _
  rw [View.set_slice_whole, Rect.mem_set_unit]
  exact Iff.rfl

/-- Every row lies in the block of the point `row / 5000`. -/
theorem covered (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨_, _, _, _, _, _, e0, e1⟩ := blocks ⟨(i 0).val / 5000, ht⟩
  have e0' : win2_3.index ⟨(i 0).val / 5000, ht⟩ (0 : Fin 2) = (i 0).val / 5000 := e0
  refine ⟨⟨(i 0).val / 5000, ht⟩, flush2_3 _, ?_⟩
  rw [mem_block]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 64 ≤ (i 1).val ∧ (i 1).val < win2_3.index ⟨(i 0).val / 5000, ht⟩ (1 : Fin 2) * 64 + 64; omega

/-- The result array after the region: `outputLayer` of the arrays the region was entered with. -/
theorem final (c : Dev nD) : (dat2 V c).arrAt 3 cfg2.N = outputLayer (V c main_v36) (V c main_v14) (V c main_arg2) :=
  (dat2 V c).arrAt_eq_of_cover 3 (outputLayer (V c main_v36) (V c main_v14) (V c main_arg2)) (fun t _ => flushed_eq V c t) (covered)

end Cert.KernelIdeal.OutputRegion

end
-- ==== Proof.KernelRounds.lean ====
/-
  The kernel program's result, read as the two rounds of `Cert.GraphConv`.

  The program is a chain: host operations, the scaling region, an aggregation, the hidden-layer region, an aggregation,
  the output-layer region. Its frame certificate names the buffer contents at every seam of that chain. This file walks
  the seams from the launch to the return and reads, at each, the few buffers the later stages use: a region's result
  array by its closed form, an input array of a region or a buffer a region does not touch as it was before, a host
  stretch's result by its function of the contents it started from. At the return the result array holds the output
  layer of the aggregation of the hidden layer of the aggregation of the scaled features, over the launch contents of
  the five arguments.
-/
import proofs.«142422_j64948495450714_1_alg».proof.Proof.Gen.KernelIdeal.Frame
import proofs.«142422_j64948495450714_1_alg».proof.Proof.GraphConv
import proofs.«142422_j64948495450714_1_alg».proof.Proof.HostSide
import proofs.«142422_j64948495450714_1_alg».proof.Proof.ScaleRegion
import proofs.«142422_j64948495450714_1_alg».proof.Proof.HiddenRegion
import proofs.«142422_j64948495450714_1_alg».proof.Proof.OutputRegion

noncomputable section

open Idealize.ShloMosaic Idealize.ShloMosaic.TcCoe Idealize.SL.Sem
open Idealize.ShloMosaic.Pipeline (Dat)

namespace Cert.KernelIdeal.Rounds

open Cert.KernelIdeal Cert.KernelIdeal.Gen Cert.GraphConv Cert.KernelIdeal.HostSide

variable (m : (ℓ : Loc nD τ sig) → Buf (Elt Ideal) ℓ) (ρ : Dev nD → PrngReg)

/-! ## At the first region's entry -/

theorem entry_arg0 (c : Dev nD) : W5 m ρ c (Proc.devRef .tc main_arg0) = m ((c : Thread nD τ).loc main_arg0) :=
  HostSide.entry_arg0 (W0 m ρ c)
theorem entry_arg1 (c : Dev nD) : W5 m ρ c (Proc.devRef .tc main_arg1) = m ((c : Thread nD τ).loc main_arg1) :=
  HostSide.entry_arg1 (W0 m ρ c)
theorem entry_arg2 (c : Dev nD) : W5 m ρ c (Proc.devRef .tc main_arg2) = m ((c : Thread nD τ).loc main_arg2) :=
  HostSide.entry_arg2 (W0 m ρ c)
theorem entry_arg3 (c : Dev nD) : W5 m ρ c (Proc.devRef .tc main_arg3) = m ((c : Thread nD τ).loc main_arg3) :=
  HostSide.entry_arg3 (W0 m ρ c)
theorem entry_arg4 (c : Dev nD) : W5 m ρ c (Proc.devRef .tc main_arg4) = m ((c : Thread nD τ).loc main_arg4) :=
  HostSide.entry_arg4 (W0 m ρ c)
/-- The out-degree column. -/
theorem entry_out (c : Dev nD) : W5 m ρ c (Proc.devRef .tc main_v11) = degreeFactor (m ((c : Thread nD τ).loc main_arg3)) :=
  HostSide.entry_outFactor (W0 m ρ c)
/-- The in-degree column. -/
theorem entry_in (c : Dev nD) : W5 m ρ c (Proc.devRef .tc main_v14) = degreeFactor (m ((c : Thread nD τ).loc main_arg4)) :=
  HostSide.entry_inFactor (W0 m ρ c)

/-! ## After the scaling region -/

/-- Its result: the features with every row scaled by its out-degree factor. -/
theorem scaled_result (c : Dev nD) : W6 m ρ c (Proc.devRef .tc main_v15) = (scaleRows (m ((c : Thread nD τ).loc main_arg0)) (degreeFactor (m ((c : Thread nD τ).loc main_arg3)))) := by
  refine (W6_arr m ρ c 2).trans ?_
  rw [ScaleRegion.final (V5 m ρ) c]
  show scaleRows (W5 m ρ c (Proc.devRef .tc main_arg0)) (W5 m ρ c (Proc.devRef .tc main_v11)) = _
  rw [entry_arg0, entry_out]
/-- The out-degree column is an input of the region: unchanged. -/
theorem scaled_out (c : Dev nD) : W6 m ρ c (Proc.devRef .tc main_v11) = degreeFactor (m ((c : Thread nD τ).loc main_arg3)) :=
  ((W6_arr m ρ c 1).trans (((dat0 (V5 m ρ) c).arrAt_in 1 rfl _).trans (A_eq0 (V5 m ρ) c 1))).trans (entry_out m ρ c)
theorem scaled_in (c : Dev nD) : W6 m ρ c (Proc.devRef .tc main_v14) = degreeFactor (m ((c : Thread nD τ).loc main_arg4)) :=
  (W6_of_ne m ρ c main_v14 (by decide)).trans (entry_in m ρ c)
theorem scaled_arg1 (c : Dev nD) : W6 m ρ c (Proc.devRef .tc main_arg1) = m ((c : Thread nD τ).loc main_arg1) :=
  (W6_of_ne m ρ c main_arg1 (by decide)).trans (entry_arg1 m ρ c)
theorem scaled_arg2 (c : Dev nD) : W6 m ρ c (Proc.devRef .tc main_arg2) = m ((c : Thread nD τ).loc main_arg2) :=
  (W6_of_ne m ρ c main_arg2 (by decide)).trans (entry_arg2 m ρ c)
theorem scaled_arg3 (c : Dev nD) : W6 m ρ c (Proc.devRef .tc main_arg3) = m ((c : Thread nD τ).loc main_arg3) :=
  (W6_of_ne m ρ c main_arg3 (by decide)).trans (entry_arg3 m ρ c)
theorem scaled_arg4 (c : Dev nD) : W6 m ρ c (Proc.devRef .tc main_arg4) = m ((c : Thread nD τ).loc main_arg4) :=
  (W6_of_ne m ρ c main_arg4 (by decide)).trans (entry_arg4 m ρ c)

/-! ## At the hidden-layer region's entry -/

/-- The first aggregation. -/
theorem hidden_input (c : Dev nD) : W7 m ρ c (Proc.devRef .tc main_v25) = (aggregate (m ((c : Thread nD τ).loc main_arg3)) (m ((c : Thread nD τ).loc main_arg4)) (scaleRows (m ((c : Thread nD τ).loc main_arg0)) (degreeFactor (m ((c : Thread nD τ).loc main_arg3))))) := by
  refine (HostSide.first_aggregate (W6 m ρ c)).trans ?_
  rw [scaled_arg3, scaled_arg4, scaled_result]
theorem hidden_in (c : Dev nD) : W7 m ρ c (Proc.devRef .tc main_v14) = degreeFactor (m ((c : Thread nD τ).loc main_arg4)) :=
  (HostSide.first_keep_v14 (W6 m ρ c)).trans (scaled_in m ρ c)
theorem hidden_out (c : Dev nD) : W7 m ρ c (Proc.devRef .tc main_v11) = degreeFactor (m ((c : Thread nD τ).loc main_arg3)) :=
  (HostSide.first_keep_v11 (W6 m ρ c)).trans (scaled_out m ρ c)
theorem hidden_arg1 (c : Dev nD) : W7 m ρ c (Proc.devRef .tc main_arg1) = m ((c : Thread nD τ).loc main_arg1) :=
  (HostSide.first_keep_arg1 (W6 m ρ c)).trans (scaled_arg1 m ρ c)
theorem hidden_arg2 (c : Dev nD) : W7 m ρ c (Proc.devRef .tc main_arg2) = m ((c : Thread nD τ).loc main_arg2) :=
  (HostSide.first_keep_arg2 (W6 m ρ c)).trans (scaled_arg2 m ρ c)
theorem hidden_arg3 (c : Dev nD) : W7 m ρ c (Proc.devRef .tc main_arg3) = m ((c : Thread nD τ).loc main_arg3) :=
  (HostSide.first_keep_arg3 (W6 m ρ c)).trans (scaled_arg3 m ρ c)
theorem hidden_arg4 (c : Dev nD) : W7 m ρ c (Proc.devRef .tc main_arg4) = m ((c : Thread nD τ).loc main_arg4) :=
  (HostSide.first_keep_arg4 (W6 m ρ c)).trans (scaled_arg4 m ρ c)

/-! ## After the hidden-layer region -/

/-- Its result: the first round, scaled for the second. -/
theorem hidden_result (c : Dev nD) : W8 m ρ c (Proc.devRef .tc main_v26) = (hiddenLayer (aggregate (m ((c : Thread nD τ).loc main_arg3)) (m ((c : Thread nD τ).loc main_arg4)) (scaleRows (m ((c : Thread nD τ).loc main_arg0)) (degreeFactor (m ((c : Thread nD τ).loc main_arg3))))) (degreeFactor (m ((c : Thread nD τ).loc main_arg4))) (degreeFactor (m ((c : Thread nD τ).loc main_arg3))) (m ((c : Thread nD τ).loc main_arg1))) := by
  refine (W8_arr m ρ c 4).trans ?_
  rw [HiddenRegion.final (V7 m ρ) c]
  show hiddenLayer (W7 m ρ c (Proc.devRef .tc main_v25)) (W7 m ρ c (Proc.devRef .tc main_v14)) (W7 m ρ c (Proc.devRef .tc main_v11)) (W7 m ρ c (Proc.devRef .tc main_arg1)) = _
  rw [hidden_input, hidden_in, hidden_out, hidden_arg1]
/-- The in-degree column is an input of the region: unchanged. -/
theorem mid_in (c : Dev nD) : W8 m ρ c (Proc.devRef .tc main_v14) = degreeFactor (m ((c : Thread nD τ).loc main_arg4)) :=
  ((W8_arr m ρ c 1).trans (((dat1 (V7 m ρ) c).arrAt_in 1 rfl _).trans (A_eq1 (V7 m ρ) c 1))).trans (hidden_in m ρ c)
theorem mid_arg2 (c : Dev nD) : W8 m ρ c (Proc.devRef .tc main_arg2) = m ((c : Thread nD τ).loc main_arg2) :=
  (W8_of_ne m ρ c main_arg2 (by decide)).trans (hidden_arg2 m ρ c)
theorem mid_arg3 (c : Dev nD) : W8 m ρ c (Proc.devRef .tc main_arg3) = m ((c : Thread nD τ).loc main_arg3) :=
  (W8_of_ne m ρ c main_arg3 (by decide)).trans (hidden_arg3 m ρ c)
theorem mid_arg4 (c : Dev nD) : W8 m ρ c (Proc.devRef .tc main_arg4) = m ((c : Thread nD τ).loc main_arg4) :=
  (W8_of_ne m ρ c main_arg4 (by decide)).trans (hidden_arg4 m ρ c)

/-! ## At the output-layer region's entry -/

/-- The second aggregation. -/
theorem output_input (c : Dev nD) : W9 m ρ c (Proc.devRef .tc main_v36) = (aggregate (m ((c : Thread nD τ).loc main_arg3)) (m ((c : Thread nD τ).loc main_arg4)) (hiddenLayer (aggregate (m ((c : Thread nD τ).loc main_arg3)) (m ((c : Thread nD τ).loc main_arg4)) (scaleRows (m ((c : Thread nD τ).loc main_arg0)) (degreeFactor (m ((c : Thread nD τ).loc main_arg3))))) (degreeFactor (m ((c : Thread nD τ).loc main_arg4))) (degreeFactor (m ((c : Thread nD τ).loc main_arg3))) (m ((c : Thread nD τ).loc main_arg1)))) := by
  refine (HostSide.second_aggregate (W8 m ρ c)).trans ?_
  rw [mid_arg3, mid_arg4, hidden_result]
theorem output_in (c : Dev nD) : W9 m ρ c (Proc.devRef .tc main_v14) = degreeFactor (m ((c : Thread nD τ).loc main_arg4)) :=
  (HostSide.second_keep_v14 (W8 m ρ c)).trans (mid_in m ρ c)
theorem output_arg2 (c : Dev nD) : W9 m ρ c (Proc.devRef .tc main_arg2) = m ((c : Thread nD τ).loc main_arg2) :=
  (HostSide.second_keep_arg2 (W8 m ρ c)).trans (mid_arg2 m ρ c)

/-! ## At the return -/

/-- The kernel program's result array: the two rounds over its own degree factors and aggregation. -/
theorem result_eq (c : Dev nD) : W10 m ρ c (Proc.devRef .tc main_v37) = outputLayer (aggregate (m ((c : Thread nD τ).loc main_arg3)) (m ((c : Thread nD τ).loc main_arg4)) (hiddenLayer (aggregate (m ((c : Thread nD τ).loc main_arg3)) (m ((c : Thread nD τ).loc main_arg4)) (scaleRows (m ((c : Thread nD τ).loc main_arg0)) (degreeFactor (m ((c : Thread nD τ).loc main_arg3))))) (degreeFactor (m ((c : Thread nD τ).loc main_arg4))) (degreeFactor (m ((c : Thread nD τ).loc main_arg3))) (m ((c : Thread nD τ).loc main_arg1)))) (degreeFactor (m ((c : Thread nD τ).loc main_arg4))) (m ((c : Thread nD τ).loc main_arg2)) := by
  refine (W10_arr m ρ c 3).trans ?_
  rw [OutputRegion.final (V9 m ρ) c]
  show outputLayer (W9 m ρ c (Proc.devRef .tc main_v36)) (W9 m ρ c (Proc.devRef .tc main_v14)) (W9 m ρ c (Proc.devRef .tc main_arg2)) = _
  rw [output_input, output_in, output_arg2]

end Cert.KernelIdeal.Rounds

end
-- ==== Proof.RefRounds.lean ====
/-
  The reference program's result, read as the two rounds of `Cert.GraphConv`.

  Its run ends with the result array at one composed term of the arguments. Three islands of arithmetic sit in that
  term between the degree factors and the two aggregations: a product with a column broadcast along the rows
  (`scaleRows`), and two matrix products of such a product (`hiddenLayer`, `outputLayer`). Each island is
  rewritten, index by index, into the function it is; the degree factors `degreeFactor` and the aggregation
  `aggregate` are carried whole and never opened.
-/
import proofs.«142422_j64948495450714_1_alg».proof.Proof.Gen.ReferenceIdeal.Run
import proofs.«142422_j64948495450714_1_alg».proof.Proof.Gen.ReferenceIdeal.Read
import proofs.«142422_j64948495450714_1_alg».proof.Proof.GraphConv
import Idealize.ShloMosaic.Lib.Pipeline.Value
import Idealize.ShloMosaic.Lib.ValueIdx
import Idealize.ShloMosaic.PureOps.Ideal.Laws

noncomputable section

open scoped BigOperators

namespace Cert.ReferenceIdeal.Rounds

open Cert.ReferenceIdeal Cert.ReferenceIdeal.Gen Cert.ReferenceIdeal.Value Idealize.ShloMosaic Idealize.ShloMosaic.TcCoe Idealize.SL.Sem Cert.GraphConv

/-- A column broadcast along the rows reads, at an index, the column's entry of that index's row. -/
theorem alongRows_apply (n : FVec Ideal S100000x1 .f32) (i : S100000x128.Idx) :
    broadcastInDim S100000x128 ![0, 1] bcast_S100000x1_S100000x128_0_1 n i = n (rowOf i) :=
  broadcastInDim_apply _ bcast_S100000x1_S100000x128_0_1 n i (rowOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A scalar broadcast over the node features reads the scalar everywhere. -/
theorem splat_apply (z : BitVec 32) (i : S100000x128.Idx) :
    broadcastInDim S100000x128 ![] bcast_S_S100000x128 (constant (F := Ideal) S_ .f32 z) i = Ideal.ofBits .f32 z :=
  broadcastInDim_apply _ bcast_S_S100000x128 (constant (F := Ideal) S_ .f32 z) i ValueIdx.ix0 (fun a => a.elim0)

/-- The host's matrix product at an index is the sum, over the 128 inner indices, of the products of the row's and the
    column's entries (the dot's contraction index re-indexed by `Fin 128`). -/
theorem hiddenProduct_apply (y : FVec Ideal S100000x128 .f32) (w : FVec Ideal S128x128 .f32) (i : S100000x128.Idx) :
    Host.dotGeneral dot_S100000x128_S128x128_S100000x128_1_0_0_1_n_n none y w i = ∑ k : Fin 128, y (lhsAt i k) * w (rhsAt i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lhsAt i k := funext fun a => Fin.ext (by
    match a with
    | ⟨0, _⟩ => exact Read.lhs_main_v29_0 _ _
    | ⟨1, _⟩ => exact (Read.lhs_main_v29_1 _ _).trans hk)
  have er : dot_S100000x128_S128x128_S100000x128_1_0_0_1_n_n.rhsIdx i ((ValueIdx.contrEquiv1 dot_S100000x128_S128x128_S100000x128_1_0_0_1_n_n 128 rfl rfl).symm k) = rhsAt i k := funext fun a => Fin.ext (by
    match a with
    | ⟨0, _⟩ => exact (Read.rhs_main_v29_0 _ _).trans hk
    | ⟨1, _⟩ => exact Read.rhs_main_v29_1 _ _)
  rw [el, er]

/-- The host's matrix product at an index is the sum, over the 128 inner indices, of the products of the row's and the
    column's entries (the dot's contraction index re-indexed by `Fin 128`). -/
theorem outputProduct_apply (y : FVec Ideal S100000x128 .f32) (w : FVec Ideal S128x64 .f32) (i : S100000x64.Idx) :
    Host.dotGeneral dot_S100000x128_S128x64_S100000x64_1_0_0_1_n_n none y w i = ∑ k : Fin 128, y (lhsAt i k) * w (rhsAt i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lhsAt i k := funext fun a => Fin.ext (by
    match a with
    | ⟨0, _⟩ => exact Read.lhs_main_v47_0 _ _
    | ⟨1, _⟩ => exact (Read.lhs_main_v47_1 _ _).trans hk)
  have er : dot_S100000x128_S128x64_S100000x64_1_0_0_1_n_n.rhsIdx i ((ValueIdx.contrEquiv1 dot_S100000x128_S128x64_S100000x64_1_0_0_1_n_n 128 rfl rfl).symm k) = rhsAt i k := funext fun a => Fin.ext (by
    match a with
    | ⟨0, _⟩ => exact (Read.rhs_main_v47_0 _ _).trans hk
    | ⟨1, _⟩ => exact Read.rhs_main_v47_1 _ _)
  rw [el, er]

/-- The product with a column broadcast along the rows is the row scaling. -/
theorem scale_eq (x : FVec Ideal S100000x128 .f32) (n : FVec Ideal S100000x1 .f32) :
    mulf x (broadcastInDim S100000x128 ![0, 1] bcast_S100000x1_S100000x128_0_1 n) = scaleRows x n := by
  funext i
  show x i * broadcastInDim S100000x128 ![0, 1] bcast_S100000x1_S100000x128_0_1 n i = x i * n (rowOf i)
  rw [alongRows_apply]

/-- The first round's arithmetic after its aggregation is `hiddenLayer`. -/
theorem hidden_eq (a : FVec Ideal S100000x128 .f32) (inn onn : FVec Ideal S100000x1 .f32) (w : FVec Ideal S128x128 .f32) :
    mulf (maximumf (Host.dotGeneral dot_S100000x128_S128x128_S100000x128_1_0_0_1_n_n none (mulf a (broadcastInDim S100000x128 ![0, 1] bcast_S100000x1_S100000x128_0_1 inn)) w)
        (broadcastInDim S100000x128 ![] bcast_S_S100000x128 (constant (F := Ideal) S_ .f32 0x00000000#32)))
      (broadcastInDim S100000x128 ![0, 1] bcast_S100000x1_S100000x128_0_1 onn) = hiddenLayer a inn onn w := by
  funext i
  show max (Host.dotGeneral dot_S100000x128_S128x128_S100000x128_1_0_0_1_n_n none (mulf a (broadcastInDim S100000x128 ![0, 1] bcast_S100000x1_S100000x128_0_1 inn)) w i)
        (broadcastInDim S100000x128 ![] bcast_S_S100000x128 (constant (F := Ideal) S_ .f32 0x00000000#32) i)
      * broadcastInDim S100000x128 ![0, 1] bcast_S100000x1_S100000x128_0_1 onn i = _
  rw [hiddenProduct_apply, splat_apply, alongRows_apply]
  unfold hiddenLayer
  refine congrArg (fun s => max s _ * _) (Finset.sum_congr rfl fun k _ => ?_)
  show a (lhsAt i k) * broadcastInDim S100000x128 ![0, 1] bcast_S100000x1_S100000x128_0_1 inn (lhsAt i k) * w (rhsAt i k) = _
  rw [alongRows_apply]

/-- The second round's arithmetic after its aggregation is `outputLayer`. -/
theorem output_eq (a : FVec Ideal S100000x128 .f32) (inn : FVec Ideal S100000x1 .f32) (w : FVec Ideal S128x64 .f32) :
    Host.dotGeneral dot_S100000x128_S128x64_S100000x64_1_0_0_1_n_n none (mulf a (broadcastInDim S100000x128 ![0, 1] bcast_S100000x1_S100000x128_0_1 inn)) w = outputLayer a inn w := by
  funext i
  rw [outputProduct_apply]
  unfold outputLayer
  refine Finset.sum_congr rfl fun k _ => ?_
  show a (lhsAt i k) * broadcastInDim S100000x128 ![0, 1] bcast_S100000x1_S100000x128_0_1 inn (lhsAt i k) * w (rhsAt i k) = _
  rw [alongRows_apply]

/-- A node's degree factor as the reference computes it from an edge-endpoint list: the number of edges with that
    endpoint, at least one, to the power -1/2; as a column. -/
def degreeFactor (idx : (⟨S1600000, .i32⟩ : BufTy).Contents (Elt Ideal)) : FVec Ideal S100000x1 .f32 :=
  broadcastInDim S100000x1 ![0] bcast_S100000_S100000x1_0 (Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 idx) (broadcastInDim S1600000 ![] bcast_S_S1600000 (constant (F := Ideal) S_ .f32 0x3F800000#32)))) (broadcastInDim S100000 ![] bcast_S_S100000 (constant (F := Ideal) S_ .f32 0xBF000000#32)))

/-- The aggregation as the reference computes it: the rows of `h` gathered along the source list (a negative
    source counted from the end) and summed into the rows the destination list names. -/
def aggregate (src dst : (⟨S1600000, .i32⟩ : BufTy).Contents (Elt Ideal)) (h : FVec Ideal S100000x128 .f32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The reference's result is the two rounds of `Cert.GraphConv` over its own degree factors and aggregation. -/
theorem result_eq (m : (ℓ : Loc nD τ sig) → Buf (Elt Ideal) ℓ) (c : Dev nD) :
    res_main_v47 (F := Ideal) m c
      = outputLayer (aggregate (m ((c.tc : Thread nD τ).loc main_arg3)) (m ((c.tc : Thread nD τ).loc main_arg4))
          (hiddenLayer (aggregate (m ((c.tc : Thread nD τ).loc main_arg3)) (m ((c.tc : Thread nD τ).loc main_arg4))
              (scaleRows (m ((c.tc : Thread nD τ).loc main_arg0)) (degreeFactor (m ((c.tc : Thread nD τ).loc main_arg3)))))
            (degreeFactor (m ((c.tc : Thread nD τ).loc main_arg4))) (degreeFactor (m ((c.tc : Thread nD τ).loc main_arg3)))
            (m ((c.tc : Thread nD τ).loc main_arg1))))
          (degreeFactor (m ((c.tc : Thread nD τ).loc main_arg4))) (m ((c.tc : Thread nD τ).loc main_arg2)) := by
  unfold res_main_v47
  rw [output_eq, hidden_eq, scale_eq]
  rfl

end Cert.ReferenceIdeal.Rounds

end
-- ==== Proof.Agreement.lean ====
/-
  The two programs' degree factors and aggregations are the same functions.

  Both programs compute a node's degree factor and aggregate along the edge lists by the same host operations on the
  same operands; the one difference is how the vector of 100000 factors becomes a column — the kernel program reshapes
  it, the reference broadcasts it into a new unit axis. Entry `r` of either column is entry `r` of the vector. The
  aggregation is the same term on both sides and is compared without being opened. With these two equations and the
  two programs' results read as the same rounds of `Cert.GraphConv`, the results agree whenever the arguments do.
-/
import proofs.«142422_j64948495450714_1_alg».proof.Proof.KernelRounds
import proofs.«142422_j64948495450714_1_alg».proof.Proof.RefRounds
import Idealize.ShloMosaic.Lib.Pipeline.Value

noncomputable section

open Idealize.ShloMosaic Idealize.ShloMosaic.TcCoe Idealize.SL.Sem

namespace Cert.Proof.Agreement

/-- A vector of 100000 numbers reshaped into a column is the vector broadcast into a new unit axis: entry `r` of
    either is entry `r` of the vector. -/
theorem column_eq (v : FVec Ideal Cert.KernelIdeal.S100000 .f32) (hcast : Cert.KernelIdeal.S100000.ShapeCasts Cert.KernelIdeal.S100000x1)
    (hbc : Cert.ReferenceIdeal.S100000.BroadcastsInDim Cert.ReferenceIdeal.S100000x1 (![0] : Fin 1 → Fin Cert.ReferenceIdeal.S100000x1.rank)) :
    shapeCast Cert.KernelIdeal.S100000x1 v hcast = broadcastInDim Cert.ReferenceIdeal.S100000x1 ![0] hbc v := by
  funext i
  have hk : ∀ a : Fin Cert.ReferenceIdeal.S100000.rank, ((fun a => match a with | ⟨0, _⟩ => ⟨(i 0).val, (i 0).isLt⟩ : Cert.KernelIdeal.S100000.Idx) a).val
      = if Cert.ReferenceIdeal.S100000.size a = 1 then 0 else (i ((![0] : Fin 1 → Fin 2) a)).val := fun a => match a with
    | ⟨0, _⟩ => by show (i 0).val = if (100000 : Nat) = 1 then 0 else (i 0).val; rw [if_neg (by decide)]
  rw [broadcastInDim_apply _ hbc v i (fun a => match a with | ⟨0, _⟩ => ⟨(i 0).val, (i 0).isLt⟩) hk]
  refine shapeCast_apply v hcast i (fun a => match a with | ⟨0, _⟩ => ⟨(i 0).val, (i 0).isLt⟩) ?_
  rw [Shape.rowMajor_val_one, Shape.rowMajor_val_two]
  have h1 : (i 1).val < 1 := (i 1).isLt
  show (i 0).val = (i 0).val * 1 + (i 1).val
  omega

/-- The two programs' degree factors are one function of the edge-endpoint list. -/
theorem factor_eq (idx : (⟨Cert.KernelIdeal.S1600000, .i32⟩ : BufTy).Contents (Elt Ideal)) :
    Cert.ReferenceIdeal.Rounds.degreeFactor idx = Cert.KernelIdeal.HostSide.degreeFactor idx := by
  unfold Cert.ReferenceIdeal.Rounds.degreeFactor Cert.KernelIdeal.HostSide.degreeFactor
  rw [column_eq]
  rfl

/-- The two programs' aggregations are one function of the edge lists and the features. -/
theorem aggregate_eq (src dst : (⟨Cert.KernelIdeal.S1600000, .i32⟩ : BufTy).Contents (Elt Ideal)) (h : FVec Ideal Cert.KernelIdeal.S100000x128 .f32) :
    Cert.ReferenceIdeal.Rounds.aggregate src dst h = Cert.KernelIdeal.HostSide.aggregate src dst h := rfl

/-- From memories that agree on the five arguments, the reference's result is the kernel program's. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v47 (F := Ideal) m' c = Cert.KernelIdeal.Gen.W10 m ρ c (Proc.devRef .tc Cert.KernelIdeal.main_v37) := by
  rw [Cert.ReferenceIdeal.Rounds.result_eq, Cert.KernelIdeal.Rounds.result_eq, h0, h1, h2, h3, h4]
  simp only [factor_eq, aggregate_eq]

end Cert.Proof.Agreement

end
-- ==== Proof.lean ====
/-
  Two-layer graph convolution with symmetric degree normalisation: the tiled kernel program against its plain
  reference, equal over the extended reals.

  Both programs take node features `x` (100000 × 128), weights `W1` (128 × 128) and `W2` (128 × 64), and the
  source and destination lists of 1600000 edges. With `on` and `inn` the out- and in-degree factors
  (edge count, at least one, to the power -1/2) and `agg` the sum over each node's incoming edges of the source rows,
  both compute

      out = (agg (max ((agg (x · on) · inn) W1) 0 · on) · inn) W2 .

  The kernel program runs the three arithmetic stages as kernels over 20 row blocks, feeding its matrix units through
  a narrower float format — the identity over the extended reals — and leaves the degree factors and the two
  aggregations to the host; the reference runs everything on the host. The stages are stated once, index by index
  (`Cert.GraphConv`); the kernel program's result is read off its frame run seam by seam (`Cert.KernelIdeal.Rounds`),
  the reference's off its run (`Cert.ReferenceIdeal.Rounds`); the degree factors and aggregations of the two sides are
  the same functions (`Cert.Proof.Agreement`). No algebraic law joins the two sides — each product and each sum over
  the 128 inner indices is written in the same order on both — so the finiteness of the inputs is never used. The
  three frames are the programs' runs with the result forgotten; the idealization rewrote nothing, so `preserves` is
  trivial.
-/
import proofs.«142422_j64948495450714_1_alg».proof.Defs
import proofs.«142422_j64948495450714_1_alg».proof.Proof.Gen.Kernel
import proofs.«142422_j64948495450714_1_alg».proof.Proof.Gen.Kernel.Frame
import proofs.«142422_j64948495450714_1_alg».proof.Proof.Gen.KernelIdeal
import proofs.«142422_j64948495450714_1_alg».proof.Proof.Gen.KernelIdeal.Frame
import proofs.«142422_j64948495450714_1_alg».proof.Proof.Gen.ReferenceIdeal
import proofs.«142422_j64948495450714_1_alg».proof.Proof.Gen.Pre_finite_inputs
import proofs.«142422_j64948495450714_1_alg».proof.Proof.Gen.ReferenceIdeal.Run
import proofs.«142422_j64948495450714_1_alg».proof.Proof.Gen.ReferenceIdeal.Read
import proofs.«142422_j64948495450714_1_alg».proof.Proof.FrameResult
import proofs.«142422_j64948495450714_1_alg».proof.Proof.Agreement
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end with the same result array: the kernel program's, named by its frame run; the reference's run
    ends at its composed term, which is that array when the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v37),
    Cert.KernelIdeal.GenP.frame_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Agreement.results_agree m ρ m' c (hagree c).1 (hagree c).2.1 (hagree c).2.2.1 (hagree c).2.2.2.1 (hagree c).2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
